-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x20 : Shape := ⟨2, ![4194304, 20]⟩
abbrev S6x20 : Shape := ⟨2, ![6, 20]⟩
abbrev S6x6 : Shape := ⟨2, ![6, 6]⟩
abbrev S_ : Shape := ⟨0, ![]⟩

class Facts : Prop where
  bcast_S_S4194304x20 : S_.BroadcastsInDim S4194304x20 (![] : Fin 0 → Fin S4194304x20.rank)
  reducesTo_S4194304x20_S_d0_1 : S4194304x20.ReducesTo [0, 1] S_
  h_S_ : 0 < S_.numel
  bcast_S_S6x20 : S_.BroadcastsInDim S6x20 (![] : Fin 0 → Fin S6x20.rank)
  reducesTo_S6x20_S_d0_1 : S6x20.ReducesTo [0, 1] S_
  bcast_S_S6x6 : S_.BroadcastsInDim S6x6 (![] : Fin 0 → Fin S6x6.rank)
  reducesTo_S6x6_S_d0_1 : S6x6.ReducesTo [0, 1] S_

variable [Facts]

def fn_part1 {F : FTy → Type} [FloatOps F] (main_v13 : IVec S_ 1) (main_v16 : IVec S6x6 1) : IVec S_ 1 :=
  let main_c_5 : IVec S_ 1 := constantI S_ 1 1#1
  let main_v17 : IVec S_ 1 := (fun x v => Host.reduce IntOp.andi x v reducesTo_S6x6_S_d0_1 h_S_) main_v16 main_c_5
  let main_v18 : IVec S_ 1 := andi main_v13 main_v17
  main_v18

def fn {F : FTy → Type} [FloatOps F] (main_arg0 : FVec F S4194304x20 .f32) (main_arg1 : FVec F S6x20 .f32) (main_arg2 : FVec F S6x6 .f32) (main_arg3 : FVec F S6x6 .f32) : IVec S_ 1 :=
  let main_v0 : FVec F S4194304x20 .f32 := Host.absf main_arg0
  let main_cst : FVec F S_ .f32 := constant S_ .f32 0x7F800000#32
  let main_v1 : FVec F S4194304x20 .f32 := broadcastInDim S4194304x20 ![] bcast_S_S4194304x20 main_cst
  let main_v2 : IVec S4194304x20 1 := cmpf .olt main_v0 main_v1
  let main_c : IVec S_ 1 := constantI S_ 1 1#1
  let main_v3 : IVec S_ 1 := (fun x v => Host.reduce IntOp.andi x v reducesTo_S4194304x20_S_d0_1 h_S_) main_v2 main_c
  let main_v4 : FVec F S6x20 .f32 := Host.absf main_arg1
  let main_cst_0 : FVec F S_ .f32 := constant S_ .f32 0x7F800000#32
  let main_v5 : FVec F S6x20 .f32 := broadcastInDim S6x20 ![] bcast_S_S6x20 main_cst_0
  let main_v6 : IVec S6x20 1 := cmpf .olt main_v4 main_v5
  let main_c_1 : IVec S_ 1 := constantI S_ 1 1#1
  let main_v7 : IVec S_ 1 := (fun x v => Host.reduce IntOp.andi x v reducesTo_S6x20_S_d0_1 h_S_) main_v6 main_c_1
  let main_v8 : IVec S_ 1 := andi main_v3 main_v7
  let main_v9 : FVec F S6x6 .f32 := Host.absf main_arg2
  let main_cst_2 : FVec F S_ .f32 := constant S_ .f32 0x7F800000#32
  let main_v10 : FVec F S6x6 .f32 := broadcastInDim S6x6 ![] bcast_S_S6x6 main_cst_2
  let main_v11 : IVec S6x6 1 := cmpf .olt main_v9 main_v10
  let main_c_3 : IVec S_ 1 := constantI S_ 1 1#1
  let main_v12 : IVec S_ 1 := (fun x v => Host.reduce IntOp.andi x v reducesTo_S6x6_S_d0_1 h_S_) main_v11 main_c_3
  let main_v13 : IVec S_ 1 := andi main_v8 main_v12
  let main_v14 : FVec F S6x6 .f32 := Host.absf main_arg3
  let main_cst_4 : FVec F S_ .f32 := constant S_ .f32 0x7F800000#32
  let main_v15 : FVec F S6x6 .f32 := broadcastInDim S6x6 ![] bcast_S_S6x6 main_cst_4
  let main_v16 : IVec S6x6 1 := cmpf .olt main_v14 main_v15
  fn_part1 (F := F) main_v13 main_v16
-- ==== Kernel.lean ====
abbrev S4194304x20 : Shape := ⟨2, ![4194304, 20]⟩
abbrev S6x20 : Shape := ⟨2, ![6, 20]⟩
abbrev S6x6 : Shape := ⟨2, ![6, 6]⟩
abbrev S6x4194304 : Shape := ⟨2, ![6, 4194304]⟩
abbrev S16384x20 : Shape := ⟨2, ![16384, 20]⟩
abbrev S6x16384 : Shape := ⟨2, ![6, 16384]⟩
abbrev S4194304x6 : Shape := ⟨2, ![4194304, 6]⟩

abbrev nBuf : Space → Nat
  | .hbm => 6
  | .vmem => 7
  | .smem => 0
  | _ => 0

abbrev bufTy : (tb : Table) → Fin (tcTables nBuf tb) → BufTy
  | .hbm, ⟨0, _⟩ => ⟨S4194304x20, .f32⟩
  | .hbm, ⟨1, _⟩ => ⟨S6x20, .f32⟩
  | .hbm, ⟨2, _⟩ => ⟨S6x6, .f32⟩
  | .hbm, ⟨3, _⟩ => ⟨S6x6, .f32⟩
  | .hbm, ⟨4, _⟩ => ⟨S6x4194304, .f32⟩
  | .hbm, ⟨5, _⟩ => ⟨S4194304x6, .f32⟩
  | .local _ .vmem, ⟨0, _⟩ => ⟨S16384x20, .f32⟩
  | .local _ .vmem, ⟨1, _⟩ => ⟨S16384x20, .f32⟩
  | .local _ .vmem, ⟨2, _⟩ => ⟨S6x20, .f32⟩
  | .local _ .vmem, ⟨3, _⟩ => ⟨S6x6, .f32⟩
  | .local _ .vmem, ⟨4, _⟩ => ⟨S6x6, .f32⟩
  | .local _ .vmem, ⟨5, _⟩ => ⟨S6x16384, .f32⟩
  | .local _ .vmem, ⟨6, _⟩ => ⟨S6x16384, .f32⟩
  | _, _ => ⟨S4194304x20, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16384x20 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x20 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S6x6 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S6x6 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S6x16384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S16384x20_S16384x20_0_0 : ∀ a, (![0, 0] : Fin 2 → Nat) a + S16384x20.size a ≤ S16384x20.size a
  h_S16384x20 : 0 < S16384x20.numel
  bitsLt_bf16_f32 : FTy.bits .bf16 < FTy.bits .f32
  inb_S6x20_S6x20_0_0 : ∀ a, (![0, 0] : Fin 2 → Nat) a + S6x20.size a ≤ S6x20.size a
  h_S6x20 : 0 < S6x20.numel
  inb_S6x6_S6x6_0_0 : ∀ a, (![0, 0] : Fin 2 → Nat) a + S6x6.size a ≤ S6x6.size a
  h_S6x6 : 0 < S6x6.numel
  inb_S6x16384_S6x16384_0_0 : ∀ a, (![0, 0] : Fin 2 → Nat) a + S6x16384.size a ≤ S6x16384.size a
  h_S6x16384 : 0 < S6x16384.numel
  transposes_S6x4194304_S4194304x6_1_0 : S6x4194304.Transposes [1, 0] S4194304x6
  dot_S6x20_S16384x20_S6x16384_1_1_0_0_n_n_wf : DotDims.WF S6x20 S16384x20 S6x16384 [1] [1] [0] [0] [] []
  dot_S6x6_S6x16384_S6x16384_1_0_0_1_n_n_wf : DotDims.WF S6x6 S6x16384 S6x16384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x20.size a ≤ S4194304x20.size a
  hwx0_0 : ∀ i : grid0.Coords, EltTy.bits .f32 = 32 ∨ (Rect.block (s := S4194304x20) S16384x20.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6x20.size a ≤ S6x20.size a
  hwx0_1 : ∀ i : grid0.Coords, EltTy.bits .f32 = 32 ∨ (Rect.block (s := S6x20) S6x20.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S6x6.size a ≤ S6x6.size a
  hwx0_2 : ∀ i : grid0.Coords, EltTy.bits .f32 = 32 ∨ (Rect.block (s := S6x6) S6x6.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S6x6.size a ≤ S6x6.size a
  hwx0_3 : ∀ i : grid0.Coords, EltTy.bits .f32 = 32 ∨ (Rect.block (s := S6x6) S6x6.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S6x16384.size a ≤ S6x4194304.size a
  hwx0_4 : ∀ i : grid0.Coords, EltTy.bits .f32 = 32 ∨ (Rect.block (s := S6x4194304) S6x16384.size (cc0_transform_4 i) (hinb0_4 i)).WholeWords (EltTy.packing .f32)

variable [Facts₀]

def dot_S6x20_S16384x20_S6x16384_1_1_0_0_n_n : DotDims S6x20 S16384x20 S6x16384 where
  lhsContracting := [1]
  rhsContracting := [1]
  lhsNonContracting := [0]
  rhsNonContracting := [0]
  lhsBatch := []
  rhsBatch := []
  wf := dot_S6x20_S16384x20_S6x16384_1_1_0_0_n_n_wf
def dot_S6x6_S6x16384_S6x16384_1_0_0_1_n_n : DotDims S6x6 S6x16384 S6x16384 where
  lhsContracting := [1]
  rhsContracting := [0]
  lhsNonContracting := [0]
  rhsNonContracting := [1]
  lhsBatch := []
  rhsBatch := []
  wf := dot_S6x6_S6x16384_S6x16384_1_0_0_1_n_n_wf

abbrev win0_0 : Pipeline.Window sig grid0 :=
  Pipeline.Window.ofSpec (Memref.whole main_arg0) S16384x20.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S6x20.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S6x6.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S6x6.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S6x16384.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4194304x20 : Shape := ⟨2, ![4194304, 20]⟩
abbrev S6x20 : Shape := ⟨2, ![6, 20]⟩
abbrev S6x6 : Shape := ⟨2, ![6, 6]⟩
abbrev S20x6 : Shape := ⟨2, ![20, 6]⟩
abbrev S4194304x6 : Shape := ⟨2, ![4194304, 6]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S4194304x20, .f32⟩
  | .hbm, ⟨1, _⟩ => ⟨S6x20, .f32⟩
  | .hbm, ⟨2, _⟩ => ⟨S6x6, .f32⟩
  | .hbm, ⟨3, _⟩ => ⟨S6x6, .f32⟩
  | .hbm, ⟨4, _⟩ => ⟨S20x6, .f32⟩
  | .hbm, ⟨5, _⟩ => ⟨S4194304x6, .f32⟩
  | .hbm, ⟨6, _⟩ => ⟨S4194304x6, .f32⟩
  | .hbm, ⟨7, _⟩ => ⟨S4194304x6, .f32⟩
  | .hbm, ⟨8, _⟩ => ⟨S_, .f32⟩
  | .hbm, ⟨9, _⟩ => ⟨S4194304x6, .f32⟩
  | .hbm, ⟨10, _⟩ => ⟨S4194304x6, .f32⟩
  | .hbm, ⟨11, _⟩ => ⟨S_, .f32⟩
  | .hbm, ⟨12, _⟩ => ⟨S4194304x6, .f32⟩
  | .hbm, ⟨13, _⟩ => ⟨S4194304x6, .f32⟩
  | .hbm, ⟨14, _⟩ => ⟨S6x6, .f32⟩
  | .hbm, ⟨15, _⟩ => ⟨S4194304x6, .f32⟩
  | .hbm, ⟨16, _⟩ => ⟨S4194304x6, .f32⟩
  | .hbm, ⟨17, _⟩ => ⟨S4194304x6, .f32⟩
  | .hbm, ⟨18, _⟩ => ⟨S_, .f32⟩
  | .hbm, ⟨19, _⟩ => ⟨S4194304x6, .f32⟩
  | .hbm, ⟨20, _⟩ => ⟨S4194304x6, .f32⟩
  | .hbm, ⟨21, _⟩ => ⟨S_, .f32⟩
  | .hbm, ⟨22, _⟩ => ⟨S4194304x6, .f32⟩
  | .hbm, ⟨23, _⟩ => ⟨S4194304x6, .f32⟩
  | .hbm, ⟨24, _⟩ => ⟨S6x6, .f32⟩
  | .hbm, ⟨25, _⟩ => ⟨S4194304x6, .f32⟩
  | _, _ => ⟨S4194304x20, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  transposes_S6x20_S20x6_1_0 : S6x20.Transposes [1, 0] S20x6
  bcast_S_S4194304x6 : S_.BroadcastsInDim S4194304x6 (![] : Fin 0 → Fin S4194304x6.rank)
  transposes_S6x6_S6x6_1_0 : S6x6.Transposes [1, 0] S6x6
  dot_S4194304x20_S20x6_S4194304x6_1_0_0_1_n_n_wf : DotDims.WF S4194304x20 S20x6 S4194304x6 [1] [0] [0] [1] [] []
  dot_S4194304x6_S6x6_S4194304x6_1_0_0_1_n_n_wf : DotDims.WF S4194304x6 S6x6 S4194304x6 [1] [0] [0] [1] [] []

variable [Facts₀]

def dot_S4194304x20_S20x6_S4194304x6_1_0_0_1_n_n : DotDims S4194304x20 S20x6 S4194304x6 where
  lhsContracting := [1]
  rhsContracting := [0]
  lhsNonContracting := [0]
  rhsNonContracting := [1]
  lhsBatch := []
  rhsBatch := []
  wf := dot_S4194304x20_S20x6_S4194304x6_1_0_0_1_n_n_wf
def dot_S4194304x6_S6x6_S4194304x6_1_0_0_1_n_n : DotDims S4194304x6 S6x6 S4194304x6 where
  lhsContracting := [1]
  rhsContracting := [0]
  lhsNonContracting := [0]
  rhsNonContracting := [1]
  lhsBatch := []
  rhsBatch := []
  wf := dot_S4194304x6_S6x6_S4194304x6_1_0_0_1_n_n_wf

class Facts : Prop extends Facts₀ where

variable [Facts]
-- ==== Proof.MlpSpec.lean ====
/-
  The function both programs compute, stated once over plain arrays of extended reals.

  One batch row `xr : Fin 20 → EReal` goes through three linear layers with weight matrices `W1` (6 × 20),
  `W2` (6 × 6) and `W5` (6 × 6), rows indexed by the output unit, with the logistic function
  `L y = 1 / (1 + e^(-y))` after the first two:

      a g = L (∑ k, W1[g,k] · xr k)        b h = L (∑ g, W2[h,g] · a g)        out o = ∑ h, W5[o,h] · b h.

  `G` is that row function applied to every row of a 4194304 × 20 input, laid out batch-major (4194304 × 6);
  `Gt` is the same numbers laid out unit-major (6 × 4194304), the transpose of `G`.
  Every sum here is a finite sum in the commutative monoid of extended reals, so nothing below needs the
  inputs to be finite.
-/
import Idealize.ShloMosaic.PureOps.Ideal
import Idealize.ShloMosaic.PureOps.Ideal.Laws
import Idealize.ShloMosaic.Lib.ValueIdx

noncomputable section

namespace Cert.Mlp

open Idealize.ShloMosaic Idealize.ShloMosaic.ValueIdx

/-- First layer of one row: unit `g` is the logistic of the row's inner product with row `g` of `W1`. -/
def layer1 (W1 : (⟨2, ![6, 20]⟩ : Shape).Idx → EReal) (xr : Fin 20 → EReal) (g : Fin 6) : EReal :=
  Ideal.logistic (∑ k : Fin 20, W1 (ix2 g k) * xr k)

/-- Second layer: unit `h` is the logistic of the inner product of the first layer's six units with row `h` of `W2`. -/
def layer2 (W2 : (⟨2, ![6, 6]⟩ : Shape).Idx → EReal) (a : Fin 6 → EReal) (h : Fin 6) : EReal :=
  Ideal.logistic (∑ g : Fin 6, W2 (ix2 h g) * a g)

/-- Third layer, linear: output `o` is the inner product of the second layer's six units with row `o` of `W5`. -/
def layer3 (W5 : (⟨2, ![6, 6]⟩ : Shape).Idx → EReal) (b : Fin 6 → EReal) (o : Fin 6) : EReal :=
  ∑ h : Fin 6, W5 (ix2 o h) * b h

/-- One row through the three layers. -/
def net (W1 : (⟨2, ![6, 20]⟩ : Shape).Idx → EReal) (W2 W5 : (⟨2, ![6, 6]⟩ : Shape).Idx → EReal)
    (xr : Fin 20 → EReal) (o : Fin 6) : EReal :=
  layer3 W5 (layer2 W2 (layer1 W1 xr)) o

/-- The result, batch-major: entry `(r, o)` is output `o` of row `r` of `x`. -/
def G (x : (⟨2, ![4194304, 20]⟩ : Shape).Idx → EReal) (W1 : (⟨2, ![6, 20]⟩ : Shape).Idx → EReal)
    (W2 W5 : (⟨2, ![6, 6]⟩ : Shape).Idx → EReal) : (⟨2, ![4194304, 6]⟩ : Shape).Idx → EReal :=
  fun i => net W1 W2 W5 (fun k => x (ix2 (i 0) k)) (i 1)

/-- The same numbers unit-major: entry `(o, r)` is output `o` of row `r` of `x`. -/
def Gt (x : (⟨2, ![4194304, 20]⟩ : Shape).Idx → EReal) (W1 : (⟨2, ![6, 20]⟩ : Shape).Idx → EReal)
    (W2 W5 : (⟨2, ![6, 6]⟩ : Shape).Idx → EReal) : (⟨2, ![6, 4194304]⟩ : Shape).Idx → EReal :=
  fun i => net W1 W2 W5 (fun k => x (ix2 (i 1) k)) (i 0)

/-- `G` at `(r, o)` is `Gt` at `(o, r)`: the two layouts are transposes of one another. -/
theorem G_eq_Gt_swap (x : (⟨2, ![4194304, 20]⟩ : Shape).Idx → EReal) (W1 : (⟨2, ![6, 20]⟩ : Shape).Idx → EReal)
    (W2 W5 : (⟨2, ![6, 6]⟩ : Shape).Idx → EReal) (r : Fin 4194304) (o : Fin 6) :
    G x W1 W2 W5 (ix2 r o) = Gt x W1 W2 W5 (ix2 o r) := rfl

/-- The single-precision word `0x3F800000` denotes the number one. -/
theorem ofBits_one_f32 : Ideal.ofBits .f32 0x3F800000#32 = 1 := by
  simp [Ideal.ofBits, Ideal.ieee, -EReal.coe_mul]; norm_num

/-- The logistic function spelled out with that word for its two ones, `1 / (1 + e^(-y))`, is the logistic
    function, at every extended real (the infinities included: it is the definition). -/
theorem spelled_logistic (y : EReal) :
    Ideal.div (Ideal.ofBits .f32 0x3F800000#32) (Ideal.ofBits .f32 0x3F800000#32 + Ideal.exp (-y)) = Ideal.logistic y := by
  rw [ofBits_one_f32]; rfl

end Cert.Mlp

end
-- ==== Proof.RefIsSpec.lean ====
/-
  The reference computes `G`.

  The reference multiplies from the other side — `x · W1ᵀ`, then `· W2ᵀ`, then `· W5ᵀ` — so entry `(r, g)` of its
  first product is `∑ k, x[r,k] · W1ᵀ[k,g] = ∑ k, x[r,k] · W1[g,k]`: the specification's inner product with the two
  factors of every term exchanged, which is the same extended real because the product commutes. Between the
  products it spells the logistic function out as `1 / (1 + e^(-y))` with the single-precision word for one.
  The three stages are read off one after the other; each uses the one before it.
-/
import proofs.«135157_j55637006352517_2_alg».proof.Proof.Gen.ReferenceIdeal.Read
import proofs.«135157_j55637006352517_2_alg».proof.Proof.MlpSpec

noncomputable section

namespace Cert.ReferenceIdeal.RefValue

open Cert.ReferenceIdeal Cert.ReferenceIdeal.Read Idealize.ShloMosaic Idealize.ShloMosaic.ValueIdx Cert.Mlp

variable (x0 : (⟨S4194304x20, .f32⟩ : BufTy).Contents (Elt Ideal)) (x1 : (⟨S6x20, .f32⟩ : BufTy).Contents (Elt Ideal))
  (x2 x3 : (⟨S6x6, .f32⟩ : BufTy).Contents (Elt Ideal))

/-! ## Where each product reads its operands -/

/-- Term `k` of entry `(r, g)` of the first product reads `x` at `(r, k)`. -/
theorem left1 (r : Fin 4194304) (g : Fin 6) (k : Fin 20) : lidx_main_v1 (ix2 r g) k = ix2 r k :=
  funext fun a => Fin.ext (by match a with | ⟨0, _⟩ => rfl | ⟨1, _⟩ => rfl)
/-- and the transposed `W1` at `(k, g)`, which is `W1` at `(g, k)`. -/
theorem right1 (r : Fin 4194304) (g : Fin 6) (k : Fin 20) : idx_main_v0 (ridx_main_v1 (ix2 r g) k) = ix2 g k :=
  funext fun a => Fin.ext (by match a with | ⟨0, _⟩ => rfl | ⟨1, _⟩ => rfl)
/-- Term `g` of entry `(r, h)` of the second product reads the first hidden layer at `(r, g)`. -/
theorem left2 (r : Fin 4194304) (h : Fin 6) (g : Fin 6) : lidx_main_v9 (ix2 r h) g = ix2 r g :=
  funext fun a => Fin.ext (by match a with | ⟨0, _⟩ => rfl | ⟨1, _⟩ => rfl)
/-- and the transposed `W2` at `(g, h)`, which is `W2` at `(h, g)`. -/
theorem right2 (r : Fin 4194304) (h : Fin 6) (g : Fin 6) : idx_main_v8 (ridx_main_v9 (ix2 r h) g) = ix2 h g :=
  funext fun a => Fin.ext (by match a with | ⟨0, _⟩ => rfl | ⟨1, _⟩ => rfl)
/-- Term `h` of entry `(r, o)` of the third product reads the second hidden layer at `(r, h)`. -/
theorem left3 (r : Fin 4194304) (o : Fin 6) (h : Fin 6) : lidx_main_v17 (ix2 r o) h = ix2 r h :=
  funext fun a => Fin.ext (by match a with | ⟨0, _⟩ => rfl | ⟨1, _⟩ => rfl)
/-- and the transposed `W5` at `(h, o)`, which is `W5` at `(o, h)`. -/
theorem right3 (r : Fin 4194304) (o : Fin 6) (h : Fin 6) : idx_main_v16 (ridx_main_v17 (ix2 r o) h) = ix2 o h :=
  funext fun a => Fin.ext (by match a with | ⟨0, _⟩ => rfl | ⟨1, _⟩ => rfl)

/-! ## The three stages -/

/-- The reference's first hidden layer at `(r, g)` is unit `g` of the specification's first layer of row `r`. -/
theorem hidden1 (r : Fin 4194304) (g : Fin 6) :
    val_main_v7 (F := Ideal) x0 x1 (ix2 r g) = layer1 x1 (fun k => x0 (ix2 r k)) g := by
  rw [val_main_v7_apply, val_main_v6_apply, val_main_cst_0_apply, val_main_v5_apply, val_main_v4_apply,
    val_main_cst_apply, val_main_v3_apply, val_main_v2_apply, val_main_v1_apply]
  simp only [val_main_v0_apply, left1, right1, Ideal.hostDivf_def, Ideal.addf_def, Ideal.hostUnary_exp_def,
    Ideal.hostNegf_def, Ideal.negf_def, Ideal.ofBits_def]
  rw [spelled_logistic]
  unfold layer1
  exact congrArg Ideal.logistic (Finset.sum_congr rfl fun k _ => mul_comm _ _)

/-- Its second hidden layer at `(r, h)` is unit `h` of the specification's second layer of row `r`. -/
theorem hidden2 (r : Fin 4194304) (h : Fin 6) :
    val_main_v15 (F := Ideal) x0 x1 x2 (ix2 r h) = layer2 x2 (layer1 x1 (fun k => x0 (ix2 r k))) h := by
  rw [val_main_v15_apply, val_main_v14_apply, val_main_cst_2_apply, val_main_v13_apply, val_main_v12_apply,
    val_main_cst_1_apply, val_main_v11_apply, val_main_v10_apply, val_main_v9_apply]
  simp only [val_main_v8_apply, left2, right2, hidden1, Ideal.hostDivf_def, Ideal.addf_def, Ideal.hostUnary_exp_def,
    Ideal.hostNegf_def, Ideal.negf_def, Ideal.ofBits_def]
  rw [spelled_logistic]
  unfold layer2
  exact congrArg Ideal.logistic (Finset.sum_congr rfl fun g _ => mul_comm _ _)

/-- The reference's result is `G` of its four arguments. -/
theorem result_is_G : val_main_v17 (F := Ideal) x0 x1 x2 x3 = G x0 x1 x2 x3 := by
  funext i
  obtain ⟨r, o, rfl⟩ : ∃ (r : Fin 4194304) (o : Fin 6), i = ix2 r o := ⟨i 0, i 1, eq_ix2 i⟩
  rw [val_main_v17_apply]
  simp only [val_main_v16_apply, left3, right3, hidden2]
  show _ = layer3 x3 (layer2 x2 (layer1 x1 fun k => x0 (ix2 r k))) o
  unfold layer3
  exact Finset.sum_congr rfl fun h _ => mul_comm _ _

end Cert.ReferenceIdeal.RefValue

end
-- ==== Proof.KernelBlock.lean ====
/-
  What the kernel body computes from one block of rows.

  The body holds a block of 16384 rows of `x` (16384 × 20) and the three weight matrices, and produces a
  6 × 16384 block with the batch along the second axis. Its first product contracts the second axis of BOTH
  operands — entry `(g, b)` is `∑ k, W1[g,k] · x[b,k]`, so no transpose of the rows is ever formed — and the two
  later products are plain matrix products `(6 × 6) · (6 × 16384)`. Each is accumulated into a block of zeros, so it
  is just the sum. The narrowings to half precision between the steps are the identity on extended reals.
  Hence entry `(o, b)` of the body's result is output `o` of row `b` of the block through the three layers.
-/
import proofs.«135157_j55637006352517_2_alg».proof.Proof.Gen.KernelIdeal.Skeleton
import proofs.«135157_j55637006352517_2_alg».proof.Proof.MlpSpec
import Idealize.ShloMosaic.Lib.ValueIdx
import Idealize.ShloMosaic.PureOps.Ideal.Laws

noncomputable section

namespace Cert.KernelIdeal.BlockValue

open Cert.KernelIdeal Cert.KernelIdeal.Gen Idealize.ShloMosaic Idealize.ShloMosaic.ValueIdx Cert.Mlp

/-! ## The first product: both operands contracted along their second axis -/

theorem rowsT_lhs_0 (j : S6x16384.Idx) (q : dot_S6x20_S16384x20_S6x16384_1_1_0_0_n_n.contr.Idx) :
    (dot_S6x20_S16384x20_S6x16384_1_1_0_0_n_n.lhsIdx j q 0).val = (j 0).val := by
  unfold DotDims.lhsIdx
  rw [dif_neg (show ¬(0 : Fin S6x20.rank) ∈ dot_S6x20_S16384x20_S6x16384_1_1_0_0_n_n.lhsBatch by decide), dif_pos (show (0 : Fin S6x20.rank) ∈ dot_S6x20_S16384x20_S6x16384_1_1_0_0_n_n.lhsNonContracting by decide)]
  rfl
theorem rowsT_lhs_1 (j : S6x16384.Idx) (q : dot_S6x20_S16384x20_S6x16384_1_1_0_0_n_n.contr.Idx) :
    (dot_S6x20_S16384x20_S6x16384_1_1_0_0_n_n.lhsIdx j q 1).val = (q ⟨0, by decide⟩).val :=
  dot_S6x20_S16384x20_S6x16384_1_1_0_0_n_n.lhsIdx_val_of_single rfl j q
theorem rowsT_rhs_0 (j : S6x16384.Idx) (q : dot_S6x20_S16384x20_S6x16384_1_1_0_0_n_n.contr.Idx) :
    (dot_S6x20_S16384x20_S6x16384_1_1_0_0_n_n.rhsIdx j q 0).val = (j 1).val := by
  unfold DotDims.rhsIdx
  rw [dif_neg (show ¬(0 : Fin S16384x20.rank) ∈ dot_S6x20_S16384x20_S6x16384_1_1_0_0_n_n.rhsBatch by decide), dif_pos (show (0 : Fin S16384x20.rank) ∈ dot_S6x20_S16384x20_S6x16384_1_1_0_0_n_n.rhsNonContracting by decide)]
  rfl
theorem rowsT_rhs_1 (j : S6x16384.Idx) (q : dot_S6x20_S16384x20_S6x16384_1_1_0_0_n_n.contr.Idx) :
    (dot_S6x20_S16384x20_S6x16384_1_1_0_0_n_n.rhsIdx j q 1).val = (q ⟨0, by decide⟩).val :=
  dot_S6x20_S16384x20_S6x16384_1_1_0_0_n_n.rhsIdx_val_of_single rfl j q

/-- Entry `(g, b)` of the first product, accumulated into zeros, is the inner product of row `g` of the left operand
    with row `b` of the right one. -/
theorem rowsT_apply {φ₁ φ₂ : FTy} (w : FVec Ideal S6x20 φ₁) (x : FVec Ideal S16384x20 φ₂) (g : Fin 6) (b : Fin 16384) :
    matmul dot_S6x20_S16384x20_S6x16384_1_1_0_0_n_n none w x (constant (F := Ideal) S6x16384 .f32 0x00000000#32) (ix2 g b)
      = ∑ k : Fin 20, w (ix2 g k) * x (ix2 b k) := by
  simp only [matmul]
  rw [Ideal.matmul_constant_zero_apply, ← Equiv.sum_comp (contrEquiv1 dot_S6x20_S16384x20_S6x16384_1_1_0_0_n_n 20 rfl rfl).symm]
  refine Finset.sum_congr rfl fun k _ => ?_
  have hk := contrEquiv1_symm_val dot_S6x20_S16384x20_S6x16384_1_1_0_0_n_n 20 rfl rfl k
  have el : dot_S6x20_S16384x20_S6x16384_1_1_0_0_n_n.lhsIdx (ix2 g b) ((contrEquiv1 dot_S6x20_S16384x20_S6x16384_1_1_0_0_n_n 20 rfl rfl).symm k) = ix2 g k := funext fun a => Fin.ext (by
    match a with
    | ⟨0, _⟩ => exact rowsT_lhs_0 _ _
    | ⟨1, _⟩ => exact (rowsT_lhs_1 _ _).trans hk)
  have er : dot_S6x20_S16384x20_S6x16384_1_1_0_0_n_n.rhsIdx (ix2 g b) ((contrEquiv1 dot_S6x20_S16384x20_S6x16384_1_1_0_0_n_n 20 rfl rfl).symm k) = ix2 b k := funext fun a => Fin.ext (by
    match a with
    | ⟨0, _⟩ => exact rowsT_rhs_0 _ _
    | ⟨1, _⟩ => exact (rowsT_rhs_1 _ _).trans hk)
  rw [el, er]

/-! ## The two later products: a 6 × 6 matrix times a 6 × 16384 block -/

theorem mat_lhs_0 (j : S6x16384.Idx) (q : dot_S6x6_S6x16384_S6x16384_1_0_0_1_n_n.contr.Idx) :
    (dot_S6x6_S6x16384_S6x16384_1_0_0_1_n_n.lhsIdx j q 0).val = (j 0).val := by
  unfold DotDims.lhsIdx
  rw [dif_neg (show ¬(0 : Fin S6x6.rank) ∈ dot_S6x6_S6x16384_S6x16384_1_0_0_1_n_n.lhsBatch by decide), dif_pos (show (0 : Fin S6x6.rank) ∈ dot_S6x6_S6x16384_S6x16384_1_0_0_1_n_n.lhsNonContracting by decide)]
  rfl
theorem mat_lhs_1 (j : S6x16384.Idx) (q : dot_S6x6_S6x16384_S6x16384_1_0_0_1_n_n.contr.Idx) :
    (dot_S6x6_S6x16384_S6x16384_1_0_0_1_n_n.lhsIdx j q 1).val = (q ⟨0, by decide⟩).val :=
  dot_S6x6_S6x16384_S6x16384_1_0_0_1_n_n.lhsIdx_val_of_single rfl j q
theorem mat_rhs_0 (j : S6x16384.Idx) (q : dot_S6x6_S6x16384_S6x16384_1_0_0_1_n_n.contr.Idx) :
    (dot_S6x6_S6x16384_S6x16384_1_0_0_1_n_n.rhsIdx j q 0).val = (q ⟨0, by decide⟩).val :=
  dot_S6x6_S6x16384_S6x16384_1_0_0_1_n_n.rhsIdx_val_of_single rfl j q
theorem mat_rhs_1 (j : S6x16384.Idx) (q : dot_S6x6_S6x16384_S6x16384_1_0_0_1_n_n.contr.Idx) :
    (dot_S6x6_S6x16384_S6x16384_1_0_0_1_n_n.rhsIdx j q 1).val = (j 1).val := by
  unfold DotDims.rhsIdx
  rw [dif_neg (show ¬(1 : Fin S6x16384.rank) ∈ dot_S6x6_S6x16384_S6x16384_1_0_0_1_n_n.rhsBatch by decide), dif_pos (show (1 : Fin S6x16384.rank) ∈ dot_S6x6_S6x16384_S6x16384_1_0_0_1_n_n.rhsNonContracting by decide)]
  rfl

/-- Entry `(h, b)` of such a product, accumulated into zeros, is the inner product of row `h` of the matrix with
    column `b` of the block. -/
theorem mat_apply {φ₁ φ₂ : FTy} (w : FVec Ideal S6x6 φ₁) (y : FVec Ideal S6x16384 φ₂) (h : Fin 6) (b : Fin 16384) :
    matmul dot_S6x6_S6x16384_S6x16384_1_0_0_1_n_n none w y (constant (F := Ideal) S6x16384 .f32 0x00000000#32) (ix2 h b)
      = ∑ g : Fin 6, w (ix2 h g) * y (ix2 g b) := by
  simp only [matmul]
  rw [Ideal.matmul_constant_zero_apply, ← Equiv.sum_comp (contrEquiv1 dot_S6x6_S6x16384_S6x16384_1_0_0_1_n_n 6 rfl rfl).symm]
  refine Finset.sum_congr rfl fun g _ => ?_
  have hg := contrEquiv1_symm_val dot_S6x6_S6x16384_S6x16384_1_0_0_1_n_n 6 rfl rfl g
  have el : dot_S6x6_S6x16384_S6x16384_1_0_0_1_n_n.lhsIdx (ix2 h b) ((contrEquiv1 dot_S6x6_S6x16384_S6x16384_1_0_0_1_n_n 6 rfl rfl).symm g) = ix2 h g := funext fun a => Fin.ext (by
    match a with
    | ⟨0, _⟩ => exact mat_lhs_0 _ _
    | ⟨1, _⟩ => exact (mat_lhs_1 _ _).trans hg)
  have er : dot_S6x6_S6x16384_S6x16384_1_0_0_1_n_n.rhsIdx (ix2 h b) ((contrEquiv1 dot_S6x6_S6x16384_S6x16384_1_0_0_1_n_n 6 rfl rfl).symm g) = ix2 g b := funext fun a => Fin.ext (by
    match a with
    | ⟨0, _⟩ => exact (mat_rhs_0 _ _).trans hg
    | ⟨1, _⟩ => exact mat_rhs_1 _ _)
  rw [el, er]

/-! ## The body's result at an entry -/

/-- Entry `(o, b)` of what the body stores is output `o` of row `b` of the block of rows through the three layers. -/
theorem payload_apply (v0 : Vec Ideal S16384x20 .f32) (v2 : Vec Ideal S6x20 .f32) (v4 v6 : Vec Ideal S6x6 .f32)
    (o : Fin 6) (b : Fin 16384) :
    k0_pay1 (F := Ideal) v0 v2 v4 v6 (ix2 o b) = net v2 v4 v6 (fun k => v0 (ix2 b k)) o := by
  unfold k0_pay1
  refine (mat_apply _ _ o b).trans ?_
  unfold net layer3
  refine Finset.sum_congr rfl fun h _ => ?_
  refine congrArg (v6 (ix2 o h) * ·) ?_
  refine (congrArg Ideal.logistic (mat_apply _ _ h b)).trans ?_
  unfold layer2
  refine congrArg Ideal.logistic (Finset.sum_congr rfl fun g _ => ?_)
  refine congrArg (v4 (ix2 h g) * ·) ?_
  exact congrArg Ideal.logistic (rowsT_apply _ _ g b)

/-- The same when the four operands are known entry by entry as reads of four whole arrays: the block of rows is the
    rows `ρ b` of `A0`, the three weight blocks are `A1`, `A2`, `A3` themselves. Entry `(o, b)` of the body's result is
    then entry `(o, ρ b)` of the unit-major result of the whole arrays. -/
theorem payload_of_reads (A0 : (⟨2, ![4194304, 20]⟩ : Shape).Idx → EReal) (A1 : (⟨2, ![6, 20]⟩ : Shape).Idx → EReal)
    (A2 A3 : (⟨2, ![6, 6]⟩ : Shape).Idx → EReal)
    (v0 : Vec Ideal S16384x20 .f32) (v2 : Vec Ideal S6x20 .f32) (v4 v6 : Vec Ideal S6x6 .f32)
    (ρ : Fin 16384 → Fin 4194304)
    (h0 : ∀ (b : Fin 16384) (k : Fin 20), v0 (ix2 b k) = A0 (ix2 (ρ b) k))
    (h1 : ∀ (g : Fin 6) (k : Fin 20), v2 (ix2 g k) = A1 (ix2 g k))
    (h2 : ∀ (h g : Fin 6), v4 (ix2 h g) = A2 (ix2 h g))
    (h3 : ∀ (o h : Fin 6), v6 (ix2 o h) = A3 (ix2 o h))
    (o : Fin 6) (b : Fin 16384) :
    k0_pay1 (F := Ideal) v0 v2 v4 v6 (ix2 o b) = Gt A0 A1 A2 A3 (ix2 o (ρ b)) := by
  refine (payload_apply v0 v2 v4 v6 o b).trans ?_
  show net v2 v4 v6 (fun k => v0 (ix2 b k)) o = net A1 A2 A3 (fun k => A0 (ix2 (ρ b) k)) o
  unfold net layer3 layer2 layer1
  simp only [h0, h1, h2, h3]

end Cert.KernelIdeal.BlockValue

end
-- ==== Proof.KernelArray.lean ====
/-
  The kernel's result array.

  The grid has 256 points. At point `t` the body sees rows `t·16384 … t·16384 + 16383` of `x` (block `t` along the
  first axis) and the three weight matrices whole, and what it leaves is written back as columns
  `t·16384 … t·16384 + 16383` of a 6 × 4194304 array (block `t` along the second axis). So what point `t` writes
  back is block `t` of ONE function of the argument arrays, the unit-major result `Gt`; the 256 column blocks tile the
  array (column `r` lies in block `r / 16384`), hence after the run the array is `Gt` of the arguments. The host then
  transposes it, and the transpose of `Gt` is the batch-major result `G`.
-/
import proofs.«135157_j55637006352517_2_alg».proof.Proof.Gen.KernelIdeal.Frame
import proofs.«135157_j55637006352517_2_alg».proof.Proof.KernelBlock
import Idealize.ShloMosaic.Lib.Pipeline.Value
import Idealize.ShloMosaic.Lib.StableHlo.Run

set_option maxRecDepth 16384

noncomputable section

namespace Cert.KernelIdeal.ArrayValue

open Cert.KernelIdeal Cert.KernelIdeal.Gen Cert.KernelIdeal.BlockValue
open Idealize.ShloMosaic Idealize.ShloMosaic.TcCoe Idealize.ShloMosaic.ValueIdx Idealize.SL.Sem Cert.Mlp
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The block each window is on at point `t`, decided over the 256 points: the rows of `x` and the columns of the
    result move with `t`; the weights stay at block `(0, 0)`. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = t.val :=
  (by decide +kernel : ∀ t : Fin grid0.N, _)

/-- Row `b` of block `t` is row `t·16384 + b` of the array. -/
def rowOf (t : Fin cfg0.N) (b : Fin 16384) : Fin 4194304 :=
  ⟨t.val * 16384 + b.val, by have ht := t.isLt; have hN : cfg0.N = 256 := N_0; omega⟩

/-! ## The four input blocks at a point, as reads of the argument arrays -/

theorem rows_read (c : Dev nD) (t : Fin cfg0.N) (b : Fin 16384) (k : Fin 20) :
    iblk m c 0 t (ix2 b k) = V m c main_arg0 (ix2 (rowOf t b) k) := by
  show V m c main_arg0 (((cfg0.win 0).blk t).view.emb (ix2 b k)) = V m c main_arg0 (ix2 (rowOf t b) k)
  obtain ⟨e00, e01, -⟩ := block_indices t
  refine congrArg (V m c main_arg0) (funext fun a => Fin.ext ?_)
  match a with
  | ⟨0, _⟩ => show win0_0.index t (0 : Fin 2) * 16384 + 1 * b.val = t.val * 16384 + b.val; omega
  | ⟨1, _⟩ => show win0_0.index t (1 : Fin 2) * 20 + 1 * k.val = k.val; omega

theorem w1_read (c : Dev nD) (t : Fin cfg0.N) (g : Fin 6) (k : Fin 20) :
    iblk m c 1 t (ix2 g k) = V m c main_arg1 (ix2 g k) := by
  show V m c main_arg1 (((cfg0.win 1).blk t).view.emb (ix2 g k)) = V m c main_arg1 (ix2 g k)
  obtain ⟨-, -, e10, e11, -⟩ := block_indices t
  refine congrArg (V m c main_arg1) (funext fun a => Fin.ext ?_)
  match a with
  | ⟨0, _⟩ => show win0_1.index t (0 : Fin 2) * 6 + 1 * g.val = g.val; omega
  | ⟨1, _⟩ => show win0_1.index t (1 : Fin 2) * 20 + 1 * k.val = k.val; omega

theorem w2_read (c : Dev nD) (t : Fin cfg0.N) (h g : Fin 6) :
    iblk m c 2 t (ix2 h g) = V m c main_arg2 (ix2 h g) := by
  show V m c main_arg2 (((cfg0.win 2).blk t).view.emb (ix2 h g)) = V m c main_arg2 (ix2 h g)
  obtain ⟨-, -, -, -, e20, e21, -⟩ := block_indices t
  refine congrArg (V m c main_arg2) (funext fun a => Fin.ext ?_)
  match a with
  | ⟨0, _⟩ => show win0_2.index t (0 : Fin 2) * 6 + 1 * h.val = h.val; omega
  | ⟨1, _⟩ => show win0_2.index t (1 : Fin 2) * 6 + 1 * g.val = g.val; omega

theorem w5_read (c : Dev nD) (t : Fin cfg0.N) (o h : Fin 6) :
    iblk m c 3 t (ix2 o h) = V m c main_arg3 (ix2 o h) := by
  show V m c main_arg3 (((cfg0.win 3).blk t).view.emb (ix2 o h)) = V m c main_arg3 (ix2 o h)
  obtain ⟨-, -, -, -, -, -, e30, e31, -⟩ := block_indices t
  refine congrArg (V m c main_arg3) (funext fun a => Fin.ext ?_)
  match a with
  | ⟨0, _⟩ => show win0_3.index t (0 : Fin 2) * 6 + 1 * o.val = o.val; omega
  | ⟨1, _⟩ => show win0_3.index t (1 : Fin 2) * 6 + 1 * h.val = h.val; omega

/-! ## What a point writes back, the cover, the array -/

/-- What point `t` writes back is block `t` of the unit-major result of the argument arrays. -/
theorem flushed_eq (c : Dev nD) (t : Fin cfg0.N) :
    (dats m 0 c).flushed 4 t = ((cfg0.win 4).blk t).view.read (Elt Ideal)
      (Gt (V m c main_arg0) (V m c main_arg1) (V m c main_arg2) (V m c main_arg3)) := by
  show (cfg0.win 4).cut (grid0.coords t) ((dats m 0 c).after 4 t) = _
  rw [after0_4]
  unfold out0_4
  rw [View.canon_unit_zero origin]
  simp only [View.ld_unit_zero (S := S16384x20) origin, View.ld_unit_zero (S := S6x20) origin, View.ld_unit_zero (S := S6x6) origin]
  funext j
  obtain ⟨o, b, rfl⟩ : ∃ (o : Fin 6) (b : Fin 16384), j = ix2 o b := ⟨j 0, j 1, eq_ix2 j⟩
  show k0_pay1 (F := Ideal) (iblk m c 0 t) (iblk m c 1 t) (iblk m c 2 t) (iblk m c 3 t) (ix2 o b)
    = Gt (V m c main_arg0) (V m c main_arg1) (V m c main_arg2) (V m c main_arg3) (((cfg0.win 4).blk t).view.emb (ix2 o b))
  have hemb : ((cfg0.win 4).blk t).view.emb (ix2 o b) = ix2 o (rowOf t b) := by
    obtain ⟨-, -, -, -, -, -, -, -, e40, e41⟩ := block_indices t
    refine funext fun a => Fin.ext ?_
    match a with
    | ⟨0, _⟩ => show win0_4.index t (0 : Fin 2) * 6 + 1 * o.val = o.val; omega
    | ⟨1, _⟩ => show win0_4.index t (1 : Fin 2) * 16384 + 1 * b.val = t.val * 16384 + b.val; omega
  rw [hemb]
  exact payload_of_reads (V m c main_arg0) (V m c main_arg1) (V m c main_arg2) (V m c main_arg3)
    (iblk m c 0 t) (iblk m c 1 t) (iblk m c 2 t) (iblk m c 3 t) (rowOf t)
    (rows_read m c t) (w1_read m c t) (w2_read m c t) (w5_read m c t) o b

/-- An index of the array is in point `t`'s block iff each coordinate is in the block's range on its axis. -/
theorem mem_blk (t : Fin cfg0.N) (i : S6x4194304.Idx) :
    i ∈ ((cfg0.win 4).blk t).view.set ↔ ∀ a : Fin 2, win0_4.index t a * S6x16384.size a ≤ (i a).val ∧ (i a).val < win0_4.index t a * S6x16384.size a + S6x16384.size a := by
  show i ∈ ((View.whole main_v0).slice (win0_4.rect t)).set ↔ _
  rw [View.set_slice_whole, Rect.mem_set_unit]
  exact Iff.rfl

/-- Every index of the array is in some point's block: column `r` is in block `r / 16384`. -/
theorem cover (i : S6x4194304.Idx) :
    ∃ t : Fin cfg0.N, (cfg0.win 4).flush t = true ∧ i ∈ ((cfg0.win 4).blk t).view.set := by
  have hi0 : (i 0).val < 6 := (i 0).isLt
  have hi1 : (i 1).val < 4194304 := (i 1).isLt
  have hN : cfg0.N = 256 := N_0
  have hq : (i 1).val / 16384 < cfg0.N := by rw [hN]; omega
  refine ⟨⟨(i 1).val / 16384, hq⟩, flush0_4 _, ?_⟩
  rw [mem_blk]
  obtain ⟨-, -, -, -, -, -, -, -, e40, e41⟩ := block_indices ⟨(i 1).val / 16384, hq⟩
  have e41' : win0_4.index ⟨(i 1).val / 16384, hq⟩ (1 : Fin 2) = (i 1).val / 16384 := e41
  intro a
  match a with
  | ⟨0, _⟩ =>
    show win0_4.index ⟨(i 1).val / 16384, hq⟩ (0 : Fin 2) * 6 ≤ (i 0).val ∧ (i 0).val < win0_4.index ⟨(i 1).val / 16384, hq⟩ (0 : Fin 2) * 6 + 6
    omega
  | ⟨1, _⟩ =>
    show win0_4.index ⟨(i 1).val / 16384, hq⟩ (1 : Fin 2) * 16384 ≤ (i 1).val ∧ (i 1).val < win0_4.index ⟨(i 1).val / 16384, hq⟩ (1 : Fin 2) * 16384 + 16384
    omega

/-- After the run the kernel's output array is the unit-major result of the argument arrays. -/
theorem final (c : Dev nD) :
    (dats m 0 c).arrAt 4 cfg0.N = Gt (V m c main_arg0) (V m c main_arg1) (V m c main_arg2) (V m c main_arg3) :=
  (dats m 0 c).arrAt_eq_of_cover 4 _ (fun t _ => flushed_eq m c t) cover

/-! ## The host's transpose, and the run -/

/-- The program's result — the host's transpose of the kernel's output array — is the batch-major result of the
    arguments as launched. -/
theorem result_eq (c : Dev nD) :
    Pipeline.afterTail₀ cfgs (dats m) 0 (V0 m) [hostOps1] c main_v1
      = G (m ((c.tc : Thread nD τ).loc main_arg0)) (m ((c.tc : Thread nD τ).loc main_arg1))
          (m ((c.tc : Thread nD τ).loc main_arg2)) (m ((c.tc : Thread nD τ).loc main_arg3)) := by
  unfold Pipeline.afterTail₀
  show StableHlo.after hostOps1 _ (Proc.devRef .tc main_v1) = _
  after_results
  rw [show Pipeline.withArrays spec0 c (V0 m c) (fun w => (dats m 0 c).arrAt w cfg0.N) (Proc.devRef .tc main_v0)
      = Gt (V m c main_arg0) (V m c main_arg1) (V m c main_arg2) (V m c main_arg3) from
    (Pipeline.withArrays_arr spec0 winFacts0.arr_inj c _ _ 4).trans (final m c)]
  funext i
  obtain ⟨r, o, rfl⟩ : ∃ (r : Fin 4194304) (o : Fin 6), i = ix2 r o := ⟨i 0, i 1, eq_ix2 i⟩
  rw [transpose_apply [1, 0] _ transposes_S6x4194304_S4194304x6_1_0 (ix2 r o) (ix2 o r) (fun b => match b with
    | ⟨0, _⟩ => rfl
    | ⟨1, _⟩ => rfl)]
  rfl

/-- The kernel's run at the extended reals: it ends with its result at `G` of the arguments and the arguments unchanged. -/
theorem run : θ_run defs (onTc (τ := τ) (main (F := Ideal))) ⟨m, fun _ => 0, ρ⟩ fun r => ∀ c : Dev nD,
      r.2.mem ((c.tc : Thread nD τ).loc main_v1)
        = G (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
      ⟨((h c).2 main_v1 (Pipeline.mem_restRefs_of main_v1 rfl (fun w => by fin_cases w <;> decide))).trans (result_eq m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c))),
       ((h c).1 2).trans (((dats m 0 c).arrAt_in 2 rfl _).trans ((A_eq m c 2).trans (V_main_arg2 m c))),
       ((h c).1 3).trans (((dats m 0 c).arrAt_in 3 rfl _).trans ((A_eq m c 3).trans (V_main_arg3 m c)))⟩)
    (run_main m ρ)

end Cert.KernelIdeal.ArrayValue

end
-- ==== Proof.lean ====
/-
  A three-layer perceptron on 4194304 rows of 20 features — two hidden layers of 6 logistic units, a linear output
  layer of 6 — computed two ways, and the proof that the two agree on the extended reals.

  The kernel walks the batch in 256 blocks of 16384 rows. It keeps the batch on the SECOND axis of every
  intermediate: its first product contracts the feature axis of the weights against the feature axis of the rows
  (entry `(g, b) = ∑ k, W1[g,k] · x[b,k]`), the next two are `(6 × 6) · (6 × 16384)`, and the 6 × 4194304 array it
  fills is transposed by the host at the end. The reference multiplies the rows by the transposed weights,
  `x · W1ᵀ`, `· W2ᵀ`, `· W5ᵀ`, and spells the logistic function out as `1 / (1 + e^(-y))`.

  On the extended reals both are the function `G` of Proof/MlpSpec.lean: the narrowings to half precision are the
  identity, the kernel's products are accumulated into zeros, the logistic operation IS `1 / (1 + e^(-y))` (with the
  single-precision word for one denoting one), the two spellings of each inner product differ by the order of the two
  factors in every term, and reading a transposed matrix at `(r, o)` reads the matrix at `(o, r)`. Only commutativity
  of the product is used, so the hypothesis that the inputs are finite is never opened.

  The pieces: the reference's run and its stages read at an index are generated (Gen/ReferenceIdeal/Run.lean,
  Read.lean) and Proof/RefIsSpec.lean shows the last stage is `G`; the kernel's frame run is generated
  (Gen/KernelIdeal/Frame.lean), Proof/KernelBlock.lean reads the body's result at an entry, and Proof/KernelArray.lean
  shows the blocks tile the output array and that the program's result is `G`. Reading the kernel on the extended
  reals changed none of its operations, so `preserves` has no conjunct.
-/
import proofs.«135157_j55637006352517_2_alg».proof.Defs
import proofs.«135157_j55637006352517_2_alg».proof.Proof.Gen.Kernel
import proofs.«135157_j55637006352517_2_alg».proof.Proof.Gen.Kernel.Skeleton
import proofs.«135157_j55637006352517_2_alg».proof.Proof.Gen.Kernel.Launch
import proofs.«135157_j55637006352517_2_alg».proof.Proof.Gen.Kernel.Points
import proofs.«135157_j55637006352517_2_alg».proof.Proof.Gen.Kernel.Frame
import proofs.«135157_j55637006352517_2_alg».proof.Proof.Gen.KernelIdeal
import proofs.«135157_j55637006352517_2_alg».proof.Proof.Gen.KernelIdeal.Skeleton
import proofs.«135157_j55637006352517_2_alg».proof.Proof.Gen.KernelIdeal.Launch
import proofs.«135157_j55637006352517_2_alg».proof.Proof.Gen.KernelIdeal.Points
import proofs.«135157_j55637006352517_2_alg».proof.Proof.Gen.KernelIdeal.Frame
import proofs.«135157_j55637006352517_2_alg».proof.Proof.Gen.ReferenceIdeal
import proofs.«135157_j55637006352517_2_alg».proof.Proof.Gen.ReferenceIdeal.Run
import proofs.«135157_j55637006352517_2_alg».proof.Proof.Gen.ReferenceIdeal.Read
import proofs.«135157_j55637006352517_2_alg».proof.Proof.Gen.Pre_finite_inputs
import proofs.«135157_j55637006352517_2_alg».proof.Proof.MlpSpec
import proofs.«135157_j55637006352517_2_alg».proof.Proof.RefIsSpec
import proofs.«135157_j55637006352517_2_alg».proof.Proof.KernelBlock
import proofs.«135157_j55637006352517_2_alg».proof.Proof.KernelArray
import Idealize.ShloMosaic.Adequacy
import Idealize.ShloMosaic.Init

noncomputable section

namespace Cert.Proof

open Idealize.ShloMosaic Idealize.ShloMosaic.TcCoe Idealize.SL.Sem

/-- The kernel as printed runs, faults nowhere and leaves its arguments as they were. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- The reference is a straight line of host operations: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- Nothing was rewritten when the kernel was read on the extended reals. -/
theorem preserves : Cert.preserves_Kernel_KernelIdeal := trivial

/-- From memories that agree on the four arguments both programs end with `G` of those arguments: the kernel by
    Proof/KernelArray.lean, the reference by its generated run, whose last stage is `G` (Proof/RefIsSpec.lean). -/
theorem algebraic : Cert.algebraic_KernelIdeal_ReferenceIdeal := by
  intro m ρ m' ρ' _ hagree
  refine ⟨fun c => Cert.Mlp.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.ArrayValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v17_eq, Cert.ReferenceIdeal.RefValue.result_is_G,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
